-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x1024 : Shape := ⟨3, ![256, 128, 1024]⟩
abbrev S1024x512 : Shape := ⟨2, ![1024, 512]⟩
abbrev S512x1 : Shape := ⟨2, ![512, 1]⟩
abbrev S_ : Shape := ⟨0, ![]⟩

class Facts : Prop where
  bcast_S_S256x128x1024 : S_.BroadcastsInDim S256x128x1024 (![] : Fin 0 → Fin S256x128x1024.rank)
  reducesTo_S256x128x1024_S_d0_1_2 : S256x128x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  main_v18

def fn {F : FTy → Type} [FloatOps F] (main_arg0 : FVec F S256x128x1024 .f32) (main_arg1 : FVec F S1024x512 .f32) (main_arg2 : FVec F S1024x512 .f32) (main_arg3 : FVec F S512x1 .f32) : IVec S_ 1 :=
  let main_v0 : FVec F S256x128x1024 .f32 := Host.absf main_arg0
  let main_cst : FVec F S_ .f32 := constant S_ .f32 0x7F800000#32
  let main_v1 : FVec F S256x128x1024 .f32 := broadcastInDim S256x128x1024 ![] bcast_S_S256x128x1024 main_cst
  let main_v2 : IVec S256x128x1024 1 := cmpf .olt main_v0 main_v1
  let main_c : IVec S_ 1 := constantI S_ 1 1#1
  let main_v3 : IVec S_ 1 := (fun x v => Host.reduce IntOp.andi x v reducesTo_S256x128x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_v13 main_v16
-- ==== Kernel.lean ====
abbrev S256x128x1024 : Shape := ⟨3, ![256, 128, 1024]⟩
abbrev S1024x512 : Shape := ⟨2, ![1024, 512]⟩
abbrev S512x1 : Shape := ⟨2, ![512, 1]⟩
abbrev S32768x1024 : Shape := ⟨2, ![32768, 1024]⟩
abbrev S1024x1024 : Shape := ⟨2, ![1024, 1024]⟩
abbrev S1x512 : Shape := ⟨2, ![1, 512]⟩
abbrev S256x128 : Shape := ⟨2, ![256, 128]⟩
abbrev S8x128 : Shape := ⟨2, ![8, 128]⟩
abbrev S1024 : Shape := ⟨1, ![1024]⟩
abbrev S1024x1 : Shape := ⟨2, ![1024, 1]⟩
abbrev S32768 : Shape := ⟨1, ![32768]⟩
abbrev S256x128x1 : Shape := ⟨3, ![256, 128, 1]⟩
abbrev S_ : Shape := ⟨0, ![]⟩
abbrev S128x1 : Shape := ⟨2, ![128, 1]⟩
abbrev S1x128x1 : Shape := ⟨3, ![1, 128, 1]⟩

abbrev nBuf : Space → Nat
  | .hbm => 25
  | .vmem => 6
  | .smem => 0
  | _ => 0

abbrev bufTy : (tb : Table) → Fin (tcTables nBuf tb) → BufTy
  | .hbm, ⟨0, _⟩ => ⟨S256x128x1024, .f32⟩
  | .hbm, ⟨1, _⟩ => ⟨S1024x512, .f32⟩
  | .hbm, ⟨2, _⟩ => ⟨S1024x512, .f32⟩
  | .hbm, ⟨3, _⟩ => ⟨S512x1, .f32⟩
  | .hbm, ⟨4, _⟩ => ⟨S32768x1024, .f32⟩
  | .hbm, ⟨5, _⟩ => ⟨S1024x1024, .f32⟩
  | .hbm, ⟨6, _⟩ => ⟨S1024x1024, .bf16⟩
  | .hbm, ⟨7, _⟩ => ⟨S1x512, .f32⟩
  | .hbm, ⟨8, _⟩ => ⟨S256x128, .f32⟩
  | .hbm, ⟨9, _⟩ => ⟨S32768, .f32⟩
  | .hbm, ⟨10, _⟩ => ⟨S256x128x1, .f32⟩
  | .hbm, ⟨11, _⟩ => ⟨S_, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S1x128x1, .f32⟩
  | .hbm, ⟨17, _⟩ => ⟨S256x128x1, .f32⟩
  | .hbm, ⟨18, _⟩ => ⟨S256x128x1, .f32⟩
  | .hbm, ⟨19, _⟩ => ⟨S256x128x1, .f32⟩
  | .hbm, ⟨20, _⟩ => ⟨S_, .f32⟩
  | .hbm, ⟨21, _⟩ => ⟨S128x1, .f32⟩
  | .hbm, ⟨22, _⟩ => ⟨S1x128x1, .f32⟩
  | .hbm, ⟨23, _⟩ => ⟨S256x128x1, .f32⟩
  | .hbm, ⟨24, _⟩ => ⟨S256x128x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x512, .f32⟩
  | .local _ .vmem, ⟨4, _⟩ => ⟨S8x128, .f32⟩
  | .local _ .vmem, ⟨5, _⟩ => ⟨S8x128, .f32⟩
  | _, _ => ⟨S256x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x128x1024_S32768x1024 : S256x128x1024.ShapeCasts S32768x1024
  concatenates_S1024x512_S1024x512_S1024x1024_d1 : Shape.Concatenates [S1024x512, S1024x512] S1024x1024 1
  bitsLt_bf16_f32 : FTy.bits .bf16 < FTy.bits .f32
  transposes_S512x1_S1x512_1_0 : S512x1.Transposes [1, 0] S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S1024x512 : S1024x1024.Slices ![0, 0] S1024x512
  slices_S1024x1024_o0_512_S1024x512 : S1024x1024.Slices ![0, 512] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  shapeCasts_S1024x1_S8x128 : S1024x1.ShapeCasts S8x128
  inb_S8x128_S8x128_0_0 : ∀ a, (![0, 0] : Fin 2 → Nat) a + S8x128.size a ≤ S8x128.size a
  h_S8x128 : 0 < S8x128.numel
  shapeCasts_S256x128_S32768 : S256x128.ShapeCasts S32768
  shapeCasts_S32768_S256x128x1 : S32768.ShapeCasts S256x128x1
  reducesTo_S256x128x1_S128x1_d0 : S256x128x1.ReducesTo [0] S128x1
  h_S_ : 0 < S_.numel
  bcast_S_S128x1 : S_.BroadcastsInDim S128x1 (![] : Fin 0 → Fin S128x1.rank)
  bcast_S128x1_S1x128x1_1_2 : S128x1.BroadcastsInDim S1x128x1 (![1, 2] : Fin 2 → Fin S1x128x1.rank)
  bcast_S1x128x1_S256x128x1_0_1_2 : S1x128x1.BroadcastsInDim S256x128x1 (![0, 1, 2] : Fin 3 → Fin S256x128x1.rank)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S256x128.size a
  hwx0_3 : ∀ i : grid0.Coords, EltTy.bits .f32 = 32 ∨ (Rect.block (s := S256x128) S8x128.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x128x1024 : Shape := ⟨3, ![256, 128, 1024]⟩
abbrev S1024x512 : Shape := ⟨2, ![1024, 512]⟩
abbrev S512x1 : Shape := ⟨2, ![512, 1]⟩
abbrev S256x128x512 : Shape := ⟨3, ![256, 128, 512]⟩
abbrev S_ : Shape := ⟨0, ![]⟩
abbrev S256x128x1 : Shape := ⟨3, ![256, 128, 1]⟩
abbrev S128x1 : Shape := ⟨2, ![128, 1]⟩
abbrev S1x128x1 : Shape := ⟨3, ![1, 128, 1]⟩

abbrev nBuf : Space → Nat
  | .hbm => 31
  | .vmem => 0
  | .smem => 0
  | _ => 0

abbrev bufTy : (tb : Table) → Fin (tcTables nBuf tb) → BufTy
  | .hbm, ⟨0, _⟩ => ⟨S256x128x1024, .f32⟩
  | .hbm, ⟨1, _⟩ => ⟨S1024x512, .f32⟩
  | .hbm, ⟨2, _⟩ => ⟨S1024x512, .f32⟩
  | .hbm, ⟨3, _⟩ => ⟨S512x1, .f32⟩
  | .hbm, ⟨4, _⟩ => ⟨S256x128x512, .f32⟩
  | .hbm, ⟨5, _⟩ => ⟨S256x128x512, .f32⟩
  | .hbm, ⟨6, _⟩ => ⟨S256x128x512, .f32⟩
  | .hbm, ⟨7, _⟩ => ⟨S256x128x512, .f32⟩
  | .hbm, ⟨8, _⟩ => ⟨S256x128x512, .f32⟩
  | .hbm, ⟨9, _⟩ => ⟨S_, .f32⟩
  | .hbm, ⟨10, _⟩ => ⟨S256x128x512, .f32⟩
  | .hbm, ⟨11, _⟩ => ⟨S256x128x512, .f32⟩
  | .hbm, ⟨12, _⟩ => ⟨S_, .f32⟩
  | .hbm, ⟨13, _⟩ => ⟨S256x128x512, .f32⟩
  | .hbm, ⟨14, _⟩ => ⟨S256x128x512, .f32⟩
  | .hbm, ⟨15, _⟩ => ⟨S256x128x512, .f32⟩
  | .hbm, ⟨16, _⟩ => ⟨S256x128x1, .f32⟩
  | .hbm, ⟨17, _⟩ => ⟨S_, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S1x128x1, .f32⟩
  | .hbm, ⟨23, _⟩ => ⟨S256x128x1, .f32⟩
  | .hbm, ⟨24, _⟩ => ⟨S256x128x1, .f32⟩
  | .hbm, ⟨25, _⟩ => ⟨S256x128x1, .f32⟩
  | .hbm, ⟨26, _⟩ => ⟨S_, .f32⟩
  | .hbm, ⟨27, _⟩ => ⟨S128x1, .f32⟩
  | .hbm, ⟨28, _⟩ => ⟨S1x128x1, .f32⟩
  | .hbm, ⟨29, _⟩ => ⟨S256x128x1, .f32⟩
  | .hbm, ⟨30, _⟩ => ⟨S256x128x1, .f32⟩
  | _, _ => ⟨S256x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S256x128x512 : S_.BroadcastsInDim S256x128x512 (![] : Fin 0 → Fin S256x128x512.rank)
  reducesTo_S256x128x1_S128x1_d0 : S256x128x1.ReducesTo [0] S128x1
  h_S_ : 0 < S_.numel
  bcast_S_S128x1 : S_.BroadcastsInDim S128x1 (![] : Fin 0 → Fin S128x1.rank)
  bcast_S128x1_S1x128x1_1_2 : S128x1.BroadcastsInDim S1x128x1 (![1, 2] : Fin 2 → Fin S1x128x1.rank)
  bcast_S1x128x1_S256x128x1_0_1_2 : S1x128x1.BroadcastsInDim S256x128x1 (![0, 1, 2] : Fin 3 → Fin S256x128x1.rank)
  dot_S256x128x1024_S1024x512_S256x128x512_2_0_01_1_n_n_wf : DotDims.WF S256x128x1024 S1024x512 S256x128x512 [2] [0] [0, 1] [1] [] []
  dot_S256x128x512_S512x1_S256x128x1_2_0_01_1_n_n_wf : DotDims.WF S256x128x512 S512x1 S256x128x1 [2] [0] [0, 1] [1] [] []

variable [Facts₀]

def dot_S256x128x1024_S1024x512_S256x128x512_2_0_01_1_n_n : DotDims S256x128x1024 S1024x512 S256x128x512 where
  lhsContracting := [2]
  rhsContracting := [0]
  lhsNonContracting := [0, 1]
  rhsNonContracting := [1]
  lhsBatch := []
  rhsBatch := []
  wf := dot_S256x128x1024_S1024x512_S256x128x512_2_0_01_1_n_n_wf
def dot_S256x128x512_S512x1_S256x128x1_2_0_01_1_n_n : DotDims S256x128x512 S512x1 S256x128x1 where
  lhsContracting := [2]
  rhsContracting := [0]
  lhsNonContracting := [0, 1]
  rhsNonContracting := [1]
  lhsBatch := []
  rhsBatch := []
  wf := dot_S256x128x512_S512x1_S256x128x1_2_0_01_1_n_n_wf

class Facts : Prop extends Facts₀ where

variable [Facts]
-- ==== Proof.Scores.lean ====
/-
  Gated-attention scores on the extended reals.

  For an instance `n` and a batch entry `b`, with `x : [256, 128, 1024]`, `v, u : [1024, 512]` and `w : [512, 1]`,

    score n b = ∑ l, tanh (∑ d, x[n, b, d] · v[d, l]) · σ (∑ d, x[n, b, d] · u[d, l]) · w[l, 0],

  `σ t = 1 / (1 + e^(-t))` the logistic function.  The scores are laid out once as a matrix `[256, 128]` and once as
  `[256, 128, 1]`; flattening the matrix to `[32768]` and splitting it again into `[256, 128, 1]` moves no entry.
-/
import Idealize.ShloMosaic.PureOps.Ideal
import Idealize.ShloMosaic.PureOps.Ideal.Laws
import Idealize.ShloMosaic.PureOps.IdealRules
import Idealize.ShloMosaic.Lib.Pipeline.Value
import Idealize.ShloMosaic.Lib.ValueIdx

noncomputable section

namespace Cert.Gated

open Idealize.ShloMosaic Idealize.ShloMosaic.ValueIdx

/-- The score of instance `n`, batch entry `b`. -/
def score (x : (⟨3, ![256, 128, 1024]⟩ : Shape).Idx → EReal) (v u : (⟨2, ![1024, 512]⟩ : Shape).Idx → EReal)
    (w : (⟨2, ![512, 1]⟩ : Shape).Idx → EReal) (n : Fin 256) (b : Fin 128) : EReal :=
  ∑ l : Fin 512, Ideal.tanh (∑ d : Fin 1024, x (ix3 n b d) * v (ix2 d l))
      * Ideal.logistic (∑ d : Fin 1024, x (ix3 n b d) * u (ix2 d l)) * w (ix2 l (0 : Fin 1))

/-- The scores as a matrix `[256, 128]`. -/
def scores2 (x : (⟨3, ![256, 128, 1024]⟩ : Shape).Idx → EReal) (v u : (⟨2, ![1024, 512]⟩ : Shape).Idx → EReal)
    (w : (⟨2, ![512, 1]⟩ : Shape).Idx → EReal) : (⟨2, ![256, 128]⟩ : Shape).Idx → EReal :=
  fun j => score x v u w ⟨(j 0).val, (j 0).isLt⟩ ⟨(j 1).val, (j 1).isLt⟩

/-- The scores with a trailing unit axis, `[256, 128, 1]`. -/
def scores3 (x : (⟨3, ![256, 128, 1024]⟩ : Shape).Idx → EReal) (v u : (⟨2, ![1024, 512]⟩ : Shape).Idx → EReal)
    (w : (⟨2, ![512, 1]⟩ : Shape).Idx → EReal) : (⟨3, ![256, 128, 1]⟩ : Shape).Idx → EReal :=
  fun i => score x v u w ⟨(i 0).val, (i 0).isLt⟩ ⟨(i 1).val, (i 1).isLt⟩

/-- The matrix of scores read at an index with coordinates `(n, b)`. -/
theorem scores2_apply (x : (⟨3, ![256, 128, 1024]⟩ : Shape).Idx → EReal) (v u : (⟨2, ![1024, 512]⟩ : Shape).Idx → EReal)
    (w : (⟨2, ![512, 1]⟩ : Shape).Idx → EReal) (j : (⟨2, ![256, 128]⟩ : Shape).Idx) (n : Fin 256) (b : Fin 128)
    (hn : (j 0).val = n.val) (hb : (j 1).val = b.val) : scores2 x v u w j = score x v u w n b := by
  unfold scores2
  exact congrArg₂ (score x v u w) (Fin.ext hn) (Fin.ext hb)

/-- The word of `1.0` denotes the extended real `1`. -/
theorem ofBits_one_f32 : Ideal.ofBits .f32 0x3F800000#32 = 1 := IdealRules.sign_bit.ideal_onePat .f32

/-- The matrix of scores flattened row-major to `[32768]` and split into `[256, 128, 1]` is the scores with the
    trailing unit axis: entry `(n, b, 0)` sits at flat position `128 n + b`, which is entry `(n, b)` of the matrix. -/
theorem flatten_split (x : (⟨3, ![256, 128, 1024]⟩ : Shape).Idx → EReal) (v u : (⟨2, ![1024, 512]⟩ : Shape).Idx → EReal)
    (w : (⟨2, ![512, 1]⟩ : Shape).Idx → EReal)
    (h1 : (⟨2, ![256, 128]⟩ : Shape).ShapeCasts ⟨1, ![32768]⟩) (h2 : (⟨1, ![32768]⟩ : Shape).ShapeCasts ⟨3, ![256, 128, 1]⟩) :
    shapeCast ⟨3, ![256, 128, 1]⟩ (shapeCast ⟨1, ![32768]⟩ (scores2 x v u w) h1) h2 = scores3 x v u w := by
  funext i
  have h0 : (i 0).val < 256 := (i 0).isLt
  have hb : (i 1).val < 128 := (i 1).isLt
  have hu : (i 2).val < 1 := (i 2).isLt
  refine (shapeCast_apply _ h2 i (ix1 (⟨(i 0).val * 128 + (i 1).val, by omega⟩ : Fin 32768)) ?_).trans ?_
  · rw [Shape.rowMajor_val_one, Shape.rowMajor_val_three]
    show (i 0).val * 128 + (i 1).val = ((i 0).val * 128 + (i 1).val) * 1 + (i 2).val
    omega
  refine (shapeCast_apply _ h1 _ (ix2 (⟨(i 0).val, h0⟩ : Fin 256) (⟨(i 1).val, hb⟩ : Fin 128)) ?_).trans ?_
  · rw [Shape.rowMajor_val_one, Shape.rowMajor_val_two]
    rfl
  rfl

end Cert.Gated

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.BlockScore.lean ====
/-
  One grid step's block of scores.

  A step holds 1024 rows of `x` (a `[1024, 1024]` block `xb`), the whole `[1024, 1024]` weight `vub` whose first 512
  columns are `v` and whose last 512 are `u`, and `w` laid as the row `wb : [1, 512]`.  It multiplies `xb · vub`, applies
  `tanh` to the left half of the product and the logistic function to the right half, multiplies the halves entry by
  entry and by `wb` along each row, sums each row, and lays the 1024 row sums out as `[8, 128]`: entry `(p, q)` of the
  block is the sum of row `128 p + q`.
-/
import proofs.«165908_j84851373899993_2_alg».proof.Proof.Gen.KernelIdeal.Skeleton
import proofs.«165908_j84851373899993_2_alg».proof.Proof.Scores
import proofs.«165908_j84851373899993_2_alg».proof.Proof.LibLayout
import Idealize.ShloMosaic.Lib.ValueLayout

noncomputable section

namespace Cert.Gated.Block

open Idealize.ShloMosaic Idealize.ShloMosaic.ValueIdx Cert.KernelIdeal Cert.KernelIdeal.Gen

/-- The product's left operand, after a cast to its own shape and the change of format, is the block itself. -/
theorem lhs_apply (xb : FVec Ideal S1024x1024 .f32) (h : S1024x1024.ShapeCasts S1024x1024) (hb : FTy.bf16.bits < FTy.f32.bits)
    (i : S1024x1024.Idx) : truncf .bf16 (shapeCast S1024x1024 xb h) hb i = xb i := by
  rw [shapeCast_self]
  rfl

/-- The free coordinates of the product's operand indices. -/
theorem dot_lhs0 (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem dot_rhs1 (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- Entry `(r, c)` of the product `xb · vub` into a zero accumulator: the sum over the feature axis. -/
theorem product_apply (xb : FVec Ideal S1024x1024 .f32) (vub : FVec Ideal S1024x1024 .bf16)
    (h : S1024x1024.ShapeCasts S1024x1024) (hb : FTy.bf16.bits < FTy.f32.bits) (r c : Fin 1024) :
    matmul dot_S1024x1024_S1024x1024_S1024x1024_1_0_0_1_n_n none (truncf .bf16 (shapeCast S1024x1024 xb h) hb)
        (shapeCast S1024x1024 vub h) (constant S1024x1024 .f32 0x00000000#32) (ix2 r c)
      = ∑ d : Fin 1024, xb (ix2 r d) * vub (ix2 d c) := by
  refine (Cert.LibLayout.matmul_rows_cols_apply (M := 1024) (K := 1024) (N := 1024)
    dot_S1024x1024_S1024x1024_S1024x1024_1_0_0_1_n_n rfl rfl rfl rfl dot_lhs0 dot_rhs1 none _ _ r c).trans ?_
  refine Finset.sum_congr rfl fun d _ => ?_
  rw [lhs_apply, shapeCast_self]

/-- Entry `(r, l)` of the gated product: `tanh` of the left half at `(r, l)`, the logistic function of the right
    half at `(r, l)`, and the row `wb` at `l`, multiplied. -/
theorem gated_apply (Z : FVec Ideal S1024x1024 .f32) (wb : FVec Ideal S1x512 .f32)
    (h0 : S1024x1024.Slices ![0, 0] S1024x512) (h512 : S1024x1024.Slices ![0, 512] S1024x512)
    (hw : S1x512.ShapeCasts S1x512) (hbc : S1x512.Broadcasts S1024x512) (r : Fin 1024) (l : Fin 512) :
    mulf (mulf (tanh (extractStridedSlice S1024x512 ![0, 0] Z h0)) (logistic (extractStridedSlice S1024x512 ![0, 512] Z h512)))
        (broadcastTo S1024x512 (shapeCast S1x512 wb hw) hbc) (ix2 r l)
      = Ideal.tanh (Z (ix2 r (⟨0 + l.val, by omega⟩ : Fin 1024))) * Ideal.logistic (Z (ix2 r (⟨512 + l.val, by omega⟩ : Fin 1024)))
          * wb (ix2 (0 : Fin 1) l) := by
  show FloatOps.mulf (FloatOps.mulf (FloatOps.tanh (extractStridedSlice S1024x512 ![0, 0] Z h0 (ix2 r l)))
      (FloatOps.logistic (extractStridedSlice S1024x512 ![0, 512] Z h512 (ix2 r l))))
      (broadcastTo S1024x512 (shapeCast S1x512 wb hw) hbc (ix2 r l)) = _
  rw [slice2_axis1_eq 0 Z h0 r l, slice2_axis1_eq 512 Z h512 r l, broadcastTo_1b_ab_apply _ hbc r l, shapeCast_self]
  rfl

/-- THE BLOCK: entry `(p, q)` of what a step stores is the gated sum of row `r = 128 p + q` of its `x` block. -/
theorem pay_apply (xb : FVec Ideal S1024x1024 .f32) (vub : FVec Ideal S1024x1024 .bf16) (wb : FVec Ideal S1x512 .f32)
    (p : Fin 8) (q : Fin 128) (r : Fin 1024) (hr : r.val = 128 * p.val + q.val) :
    k0_pay1 (F := Ideal) xb vub wb (ix2 p q)
      = ∑ l : Fin 512, Ideal.tanh (∑ d : Fin 1024, xb (ix2 r d) * vub (ix2 d (⟨0 + l.val, by omega⟩ : Fin 1024)))
          * Ideal.logistic (∑ d : Fin 1024, xb (ix2 r d) * vub (ix2 d (⟨512 + l.val, by omega⟩ : Fin 1024)))
          * wb (ix2 (0 : Fin 1) l) := by
  unfold k0_pay1
  dsimp only
  refine (shapeCast_apply _ _ (ix2 p q) (ix2 r (0 : Fin 1)) ?_).trans ?_
  · rw [Shape.rowMajor_val_two, Shape.rowMajor_val_two]
    show r.val * 1 + 0 = p.val * 128 + q.val
    omega
  refine (Cert.LibLayout.shapeCast_a_a1_apply _ _ r (0 : Fin 1)).trans ?_
  refine (Cert.LibLayout.sum_rows_apply _ _ _ _ r).trans ?_
  refine Finset.sum_congr rfl fun l _ => ?_
  refine (gated_apply _ wb _ _ _ _ r l).trans ?_
  rw [product_apply, product_apply]

end Cert.Gated.Block

end
-- ==== Proof.LibReshape.lean ====
/-
  Reshapes of rank-4 and rank-3 arrays read at coordinates, over variable extents.

  The three leading axes of `[A, B, C, D]` merged into the rows of a matrix `[R, D]` and split back; the two leading axes of
  `[A, B, D]` merged into `[R, D]` and split back; a unit axis put second or third (`[A, C, D]` as `[A, 1, C, D]`,
  `[A, B, D]` as `[A, B, 1, D]`) and the broadcast that fills it; and the sum of a rank-4 array of extended reals over its
  second or its third axis.  A merged row index is written row-major: `(a · B + b) · C + c`.
-/
import Idealize.ShloMosaic.Lib.Pipeline.Value
import Idealize.ShloMosaic.Lib.ValueIdx
import Idealize.ShloMosaic.PureOps.Ideal.Laws

namespace Cert.LibReshape

open Idealize.ShloMosaic Idealize.ShloMosaic.ValueIdx

variable {α : Type}

/-- `[A, B, C, D]` with its three leading axes merged into `[R, D]`: row `(a · B + b) · C + c`, column `d`, reads the operand
    at `(a, b, c, d)`. -/
theorem merge3_apply {A B C D R : ℕ} (x : (⟨4, ![A, B, C, D]⟩ : Shape).Idx → α)
    (h : (⟨4, ![A, B, C, D]⟩ : Shape).ShapeCasts ⟨2, ![R, D]⟩) (a : Fin A) (b : Fin B) (c : Fin C) (d : Fin D) (r : Fin R)
    (hr : r.val = (a.val * B + b.val) * C + c.val) :
    shapeCast ⟨2, ![R, D]⟩ x h (ix2 r d) = x (ix4 a b c d) :=
  shapeCast_apply x h _ _ (by
    rw [Shape.rowMajor_val_four, Shape.rowMajor_val_two]
    show ((a.val * B + b.val) * C + c.val) * D + d.val = r.val * D + d.val
    rw [hr])

/-- A matrix `[R, D]` with its rows split into three axes `[A, B, C, D]`: entry `(a, b, c, d)` reads row
    `(a · B + b) · C + c`, column `d`. -/
theorem split3_apply {A B C D R : ℕ} (y : (⟨2, ![R, D]⟩ : Shape).Idx → α)
    (h : (⟨2, ![R, D]⟩ : Shape).ShapeCasts ⟨4, ![A, B, C, D]⟩) (a : Fin A) (b : Fin B) (c : Fin C) (d : Fin D) (r : Fin R)
    (hr : r.val = (a.val * B + b.val) * C + c.val) :
    shapeCast ⟨4, ![A, B, C, D]⟩ y h (ix4 a b c d) = y (ix2 r d) :=
  shapeCast_apply y h _ _ (by
    rw [Shape.rowMajor_val_four, Shape.rowMajor_val_two]
    show r.val * D + d.val = ((a.val * B + b.val) * C + c.val) * D + d.val
    rw [hr])

/-- `[A, B, D]` with its two leading axes merged into `[R, D]`: row `a · B + b`, column `d`, reads `(a, b, d)`. -/
theorem merge2_apply {A B D R : ℕ} (x : (⟨3, ![A, B, D]⟩ : Shape).Idx → α)
    (h : (⟨3, ![A, B, D]⟩ : Shape).ShapeCasts ⟨2, ![R, D]⟩) (a : Fin A) (b : Fin B) (d : Fin D) (r : Fin R)
    (hr : r.val = a.val * B + b.val) :
    shapeCast ⟨2, ![R, D]⟩ x h (ix2 r d) = x (ix3 a b d) :=
  shapeCast_apply x h _ _ (by
    rw [Shape.rowMajor_val_three, Shape.rowMajor_val_two]
    show (a.val * B + b.val) * D + d.val = r.val * D + d.val
    rw [hr])

/-- A matrix `[R, D]` with its rows split into two axes `[A, B, D]`: entry `(a, b, d)` reads row `a · B + b`, column `d`. -/
theorem split2_apply {A B D R : ℕ} (y : (⟨2, ![R, D]⟩ : Shape).Idx → α)
    (h : (⟨2, ![R, D]⟩ : Shape).ShapeCasts ⟨3, ![A, B, D]⟩) (a : Fin A) (b : Fin B) (d : Fin D) (r : Fin R)
    (hr : r.val = a.val * B + b.val) :
    shapeCast ⟨3, ![A, B, D]⟩ y h (ix3 a b d) = y (ix2 r d) :=
  shapeCast_apply y h _ _ (by
    rw [Shape.rowMajor_val_three, Shape.rowMajor_val_two]
    show r.val * D + d.val = (a.val * B + b.val) * D + d.val
    rw [hr])

/-- `[A, B, D]` given a unit third axis, `[A, B, 1, D]`: entry `(a, b, u, d)` reads `(a, b, d)`. -/
theorem unitThird_apply {A B D : ℕ} (x : (⟨3, ![A, B, D]⟩ : Shape).Idx → α)
    (h : (⟨3, ![A, B, D]⟩ : Shape).ShapeCasts ⟨4, ![A, B, 1, D]⟩) (a : Fin A) (b : Fin B) (u : Fin 1) (d : Fin D) :
    shapeCast ⟨4, ![A, B, 1, D]⟩ x h (ix4 a b u d) = x (ix3 a b d) :=
  shapeCast_apply x h _ _ (by
    have hu : u.val = 0 := by omega
    rw [Shape.rowMajor_val_three, Shape.rowMajor_val_four]
    show (a.val * B + b.val) * D + d.val = ((a.val * B + b.val) * 1 + u.val) * D + d.val
    rw [hu, Nat.mul_one, Nat.add_zero])

/-- `[A, C, D]` given a unit second axis, `[A, 1, C, D]`: entry `(a, u, c, d)` reads `(a, c, d)`. -/
theorem unitSecond_apply {A C D : ℕ} (x : (⟨3, ![A, C, D]⟩ : Shape).Idx → α)
    (h : (⟨3, ![A, C, D]⟩ : Shape).ShapeCasts ⟨4, ![A, 1, C, D]⟩) (a : Fin A) (u : Fin 1) (c : Fin C) (d : Fin D) :
    shapeCast ⟨4, ![A, 1, C, D]⟩ x h (ix4 a u c d) = x (ix3 a c d) :=
  shapeCast_apply x h _ _ (by
    have hu : u.val = 0 := by omega
    rw [Shape.rowMajor_val_three, Shape.rowMajor_val_four]
    show (a.val * C + c.val) * D + d.val = ((a.val * 1 + u.val) * C + c.val) * D + d.val
    rw [hu, Nat.mul_one, Nat.add_zero])

/-- A coordinate below `n` is itself unless `n = 1`, when it is `0`: the form a broadcast's side condition takes. -/
theorem val_eq_ite {n : ℕ} (a : Fin n) : a.val = if n = 1 then 0 else a.val := by
  split
  · have := a.isLt; omega
  · rfl

/-- `[A, B, 1, D]` repeated along its third axis to `[A, B, C, D]`: entry `(a, b, c, d)` reads `(a, b, 0, d)`. -/
theorem fillThird_apply {A B C D : ℕ} (v : (⟨4, ![A, B, 1, D]⟩ : Shape).Idx → α)
    (h : (⟨4, ![A, B, 1, D]⟩ : Shape).Broadcasts ⟨4, ![A, B, C, D]⟩) (a : Fin A) (b : Fin B) (c : Fin C) (d : Fin D) :
    broadcastTo ⟨4, ![A, B, C, D]⟩ v h (ix4 a b c d) = v (ix4 a b (0 : Fin 1) d) := by
  refine broadcastTo_apply v h (ix4 a b c d) (ix4 a b (0 : Fin 1) d) fun ax => ?_
  match ax with
  | ⟨0, _⟩ => exact val_eq_ite a
  | ⟨1, _⟩ => exact val_eq_ite b
  | ⟨2, _⟩ => rfl
  | ⟨3, _⟩ => exact val_eq_ite d

/-- `[A, 1, C, D]` repeated along its second axis to `[A, B, C, D]`: entry `(a, b, c, d)` reads `(a, 0, c, d)`. -/
theorem fillSecond_apply {A B C D : ℕ} (v : (⟨4, ![A, 1, C, D]⟩ : Shape).Idx → α)
    (h : (⟨4, ![A, 1, C, D]⟩ : Shape).Broadcasts ⟨4, ![A, B, C, D]⟩) (a : Fin A) (b : Fin B) (c : Fin C) (d : Fin D) :
    broadcastTo ⟨4, ![A, B, C, D]⟩ v h (ix4 a b c d) = v (ix4 a (0 : Fin 1) c d) := by
  refine broadcastTo_apply v h (ix4 a b c d) (ix4 a (0 : Fin 1) c d) fun ax => ?_
  match ax with
  | ⟨0, _⟩ => exact val_eq_ite a
  | ⟨1, _⟩ => rfl
  | ⟨2, _⟩ => exact val_eq_ite c
  | ⟨3, _⟩ => exact val_eq_ite d

/-- The sum of a rank-4 array of extended reals over its third axis, read at `(a, b, d)`: `∑ k, src (a, b, k, d)`. -/
theorem sumThird_apply {A B C D : ℕ} (src : FVec Ideal ⟨4, ![A, B, C, D]⟩ .f32) (acc : BitVec 32)
    (h : (⟨4, ![A, B, C, D]⟩ : Shape).Reduces [2] ⟨3, ![A, B, D]⟩) (hφ : FKind.Formats FTy.f32)
    (hacc : acc = FKind.add.neutral FTy.f32 hφ) (a : Fin A) (b : Fin B) (d : Fin D) :
    multiReduction .add [2] ⟨3, ![A, B, D]⟩ src acc h hφ hacc (ix3 a b d) = ∑ k : Fin C, src (ix4 a b k d) := by
  refine (Ideal.multiReduction_add_single src acc h hφ hacc (ix3 a b d)).trans ?_
  refine Finset.sum_congr rfl fun k _ => ?_
  exact congrArg src (funext fun ax => Fin.ext (by
    match ax with | ⟨0, _⟩ => rfl | ⟨1, _⟩ => rfl | ⟨2, _⟩ => rfl | ⟨3, _⟩ => rfl))

/-- The sum of a rank-4 array of extended reals over its second axis, read at `(a, c, d)`: `∑ k, src (a, k, c, d)`. -/
theorem sumSecond_apply {A B C D : ℕ} (src : FVec Ideal ⟨4, ![A, B, C, D]⟩ .f32) (acc : BitVec 32)
    (h : (⟨4, ![A, B, C, D]⟩ : Shape).Reduces [1] ⟨3, ![A, C, D]⟩) (hφ : FKind.Formats FTy.f32)
    (hacc : acc = FKind.add.neutral FTy.f32 hφ) (a : Fin A) (c : Fin C) (d : Fin D) :
    multiReduction .add [1] ⟨3, ![A, C, D]⟩ src acc h hφ hacc (ix3 a c d) = ∑ k : Fin B, src (ix4 a k c d) := by
  refine (Ideal.multiReduction_add_single src acc h hφ hacc (ix3 a c d)).trans ?_
  refine Finset.sum_congr rfl fun k _ => ?_
  exact congrArg src (funext fun ax => Fin.ext (by
    match ax with | ⟨0, _⟩ => rfl | ⟨1, _⟩ => rfl | ⟨2, _⟩ => rfl | ⟨3, _⟩ => rfl))

end Cert.LibReshape
-- ==== Proof.RegionValue.lean ====
/-
  The array of scores the grid leaves.

  Before the grid runs, `x` is flattened to the matrix `[32768, 1024]` (row `128 n + b` is `x[n, b, ·]`), `v` and `u` are
  set side by side as one `[1024, 1024]` weight, and `w` is transposed to a row.  Step `t` of the 32 reads rows
  `1024 t … 1024 t + 1023` of the flattened `x`, the whole weight and the whole row, and writes rows `8 t … 8 t + 7` of the
  `[256, 128]` result.  Entry `(p, q)` of its block is the gated sum of its row `128 p + q`, that is of flattened row
  `1024 t + 128 p + q = 128 (8 t + p) + q`, which is `x[8 t + p, q, ·]`: the score of instance `8 t + p`, batch entry `q`.
  The 32 blocks tile the result, so the result is the matrix of scores.
-/
import proofs.«165908_j84851373899993_2_alg».proof.Proof.Gen.KernelIdeal.Frame
import proofs.«165908_j84851373899993_2_alg».proof.Proof.BlockScore
import proofs.«165908_j84851373899993_2_alg».proof.Proof.LibReshape
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Gated.Region

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The arrays the grid reads, from the arguments -/

/-- The flattened `x`. -/
theorem V_x (c : Dev nD) : (V m c main_v0 : S32768x1024.Idx → EReal)
    = shapeCast S32768x1024 (m ((c : Thread nD τ).loc main_arg0)) shapeCasts_S256x128x1024_S32768x1024 := by
  show StableHlo.after hostOps0 (fun b => m (c, b)) (Proc.devRef .tc main_v0) = _
  after_results
  rfl

/-- `v` and `u` side by side. -/
theorem V_vu (c : Dev nD) : (V m c main_v2 : S1024x1024.Idx → EReal)
    = truncf (F := Ideal) .bf16 (concatenate S1024x1024 1 [⟨S1024x512, m ((c : Thread nD τ).loc main_arg1)⟩, ⟨S1024x512, m ((c : Thread nD τ).loc main_arg2)⟩]
        concatenates_S1024x512_S1024x512_S1024x1024_d1) bitsLt_bf16_f32 := by
  show StableHlo.after hostOps0 (fun b => m (c, b)) (Proc.devRef .tc main_v2) = _
  after_results

/-- `w` as a row. -/
theorem V_w (c : Dev nD) : (V m c main_v3 : S1x512.Idx → EReal)
    = transpose S1x512 [1, 0] (m ((c : Thread nD τ).loc main_arg3)) transposes_S512x1_S1x512_1_0 := by
  show StableHlo.after hostOps0 (fun b => m (c, b)) (Proc.devRef .tc main_v3) = _
  after_results

/-! ## Which block each step reads and writes -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of step `t`'s block of `x` is `x[n, b, ·]` when `128 n + b = 1024 t + r`. -/
theorem xblk_apply (c : Dev nD) (t : Fin cfg0.N) (r d : Fin 1024) (n : Fin 256) (b : Fin 128)
    (hn : 1024 * t.val + r.val = n.val * 128 + b.val) :
    (iblk m c 0 t : FVec Ideal S1024x1024 .f32) (ix2 r d) = m ((c : Thread nD τ).loc main_arg0) (ix3 n b d) := by
  have hR : 1024 * t.val + r.val < 32768 := by have := n.isLt; have := b.isLt; omega
  unfold iblk
  rw [View.read_apply]
  show V m c main_v0 _ = _
  rw [V_x]
  obtain ⟨e0, e1, -⟩ := idx_facts t
  have hemb : ((cfg0.win 0).blk t).view.emb (ix2 r d : S1024x1024.Idx) = (ix2 (⟨1024 * t.val + r.val, hR⟩ : Fin 32768) d : S32768x1024.Idx) :=
    funext fun a => Fin.ext (by
      match a with
      | ⟨0, _⟩ => show win0_0.index t (0 : Fin 2) * 1024 + 1 * r.val = 1024 * t.val + r.val; rw [e0]; omega
      | ⟨1, _⟩ => show win0_0.index t (1 : Fin 2) * 1024 + 1 * d.val = d.val; rw [e1]; omega)
  refine (congrArg (shapeCast S32768x1024 (m ((c : Thread nD τ).loc main_arg0)) shapeCasts_S256x128x1024_S32768x1024) hemb).trans ?_
  exact Cert.LibReshape.merge2_apply _ shapeCasts_S256x128x1024_S32768x1024 n b d _ hn

/-- Every step's block of the weight is the weight: its left half is `v`, -/
theorem vblk_apply (c : Dev nD) (t : Fin cfg0.N) (d : Fin 1024) (l : Fin 512) (k : Fin 1024) (hk : k.val = 0 + l.val) :
    (iblk m c 1 t : FVec Ideal S1024x1024 .bf16) (ix2 d k) = m ((c : Thread nD τ).loc main_arg1) (ix2 d l) := by
  unfold iblk
  rw [View.read_apply]
  show V m c main_v2 _ = _
  rw [V_vu]
  show concatenate S1024x1024 1 [⟨S1024x512, m ((c : Thread nD τ).loc main_arg1)⟩, ⟨S1024x512, m ((c : Thread nD τ).loc main_arg2)⟩]
    concatenates_S1024x512_S1024x512_S1024x1024_d1 _ = _
  refine concatenate_pair_apply_left (t := S1024x1024) (s₁ := S1024x512) (s₂ := S1024x512) (1 : Fin S1024x1024.rank) _ _ _ _ rfl (ix2 d l) fun a => ?_
  obtain ⟨-, -, e0, e1, -⟩ := idx_facts t
  match a with
  | ⟨0, _⟩ => show d.val = win0_1.index t (0 : Fin 2) * 1024 + 1 * d.val; rw [e0]; omega
  | ⟨1, _⟩ => show l.val = win0_1.index t (1 : Fin 2) * 1024 + 1 * k.val; rw [e1]; omega

/-- and its right half is `u`. -/
theorem ublk_apply (c : Dev nD) (t : Fin cfg0.N) (d : Fin 1024) (l : Fin 512) (k : Fin 1024) (hk : k.val = 512 + l.val) :
    (iblk m c 1 t : FVec Ideal S1024x1024 .bf16) (ix2 d k) = m ((c : Thread nD τ).loc main_arg2) (ix2 d l) := by
  unfold iblk
  rw [View.read_apply]
  show V m c main_v2 _ = _
  rw [V_vu]
  show concatenate S1024x1024 1 [⟨S1024x512, m ((c : Thread nD τ).loc main_arg1)⟩, ⟨S1024x512, m ((c : Thread nD τ).loc main_arg2)⟩]
    concatenates_S1024x512_S1024x512_S1024x1024_d1 _ = _
  obtain ⟨-, -, e0, e1, -⟩ := idx_facts t
  refine concatenate_pair_apply_right (t := S1024x1024) (s₁ := S1024x512) (s₂ := S1024x512) (1 : Fin S1024x1024.rank) _ _ _ _ rfl rfl (ix2 d l) (fun a ha => ?_) ?_
  · match a with
    | ⟨0, _⟩ => show d.val = win0_1.index t (0 : Fin 2) * 1024 + 1 * d.val; rw [e0]; omega
    | ⟨1, _⟩ => exact absurd rfl ha
  · show l.val + 512 = win0_1.index t (1 : Fin 2) * 1024 + 1 * k.val
    rw [e1]; omega

/-- Every step's block of the row is the row: entry `l` is `w[l, 0]`. -/
theorem wblk_apply (c : Dev nD) (t : Fin cfg0.N) (l : Fin 512) :
    (iblk m c 2 t : FVec Ideal S1x512 .f32) (ix2 (0 : Fin 1) l) = m ((c : Thread nD τ).loc main_arg3) (ix2 l (0 : Fin 1)) := by
  unfold iblk
  rw [View.read_apply]
  show V m c main_v3 _ = _
  rw [V_w]
  refine (transpose_ix2_apply (a := 512) (b := 1) _ transposes_S512x1_S1x512_1_0 (0 : Fin 1) l).symm.trans ?_ |>.symm
  refine congrArg _ (funext fun a => Fin.ext ?_)
  obtain ⟨-, -, -, -, e0, e1, -⟩ := idx_facts t
  match a with
  | ⟨0, _⟩ => show 0 = win0_2.index t (0 : Fin 2) * 1 + 1 * 0; rw [e0]
  | ⟨1, _⟩ => show l.val = win0_2.index t (1 : Fin 2) * 512 + 1 * l.val; rw [e1]; omega

/-! ## What a step writes back, and the whole result -/

/-- The matrix of scores of the arguments. -/
abbrev result (c : Dev nD) : S256x128.Idx → EReal :=
  Cert.Gated.scores2 (m ((c : Thread nD τ).loc main_arg0)) (m ((c : Thread nD τ).loc main_arg1))
    (m ((c : Thread nD τ).loc main_arg2)) (m ((c : Thread nD τ).loc main_arg3))

/-- Step `t` writes back rows `8 t … 8 t + 7` of the matrix of scores. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x512) hz]
  funext j
  obtain ⟨p, q, rfl⟩ : ∃ (p : Fin 8) (q : Fin 128), j = ix2 p q := ⟨j 0, j 1, eq_ix2 j⟩
  have ht : t.val < 32 := lt_of_lt_of_eq t.isLt N_0
  obtain ⟨-, -, -, -, -, -, e0, e1⟩ := idx_facts t
  show k0_pay1 (F := Ideal) (iblk m c 0 t) (iblk m c 1 t) (iblk m c 2 t) (ix2 p q)
    = result m c (((cfg0.win 3).blk t).view.emb (ix2 p q))
  refine ((Cert.Gated.Block.pay_apply _ _ _ p q (⟨128 * p.val + q.val, by omega⟩ : Fin 1024) rfl).trans ?_).trans
    (Cert.Gated.scores2_apply _ _ _ _ _ (⟨8 * t.val + p.val, by omega⟩ : Fin 256) q ?_ ?_).symm
  · unfold Cert.Gated.score
    refine Finset.sum_congr rfl fun l _ => ?_
    have e1 : ∀ d : Fin 1024, (iblk m c 0 t : FVec Ideal S1024x1024 .f32) (ix2 (⟨128 * p.val + q.val, by omega⟩ : Fin 1024) d)
        = m ((c : Thread nD τ).loc main_arg0) (ix3 (⟨8 * t.val + p.val, by omega⟩ : Fin 256) q d) := fun d =>
      xblk_apply m c t _ d _ q (by show 1024 * t.val + (128 * p.val + q.val) = (8 * t.val + p.val) * 128 + q.val; omega)
    have e2 : ∀ d : Fin 1024, (iblk m c 1 t : FVec Ideal S1024x1024 .bf16) (ix2 d (⟨0 + l.val, by omega⟩ : Fin 1024))
        = m ((c : Thread nD τ).loc main_arg1) (ix2 d l) := fun d => vblk_apply m c t d l _ rfl
    have e3 : ∀ d : Fin 1024, (iblk m c 1 t : FVec Ideal S1024x1024 .bf16) (ix2 d (⟨512 + l.val, by omega⟩ : Fin 1024))
        = m ((c : Thread nD τ).loc main_arg2) (ix2 d l) := fun d => ublk_apply m c t d l _ rfl
    simp only [e1, e2, e3, wblk_apply m c t l]
  · show win0_3.index t (0 : Fin 2) * 8 + 1 * p.val = 8 * t.val + p.val
    rw [e0]; omega
  · show win0_3.index t (1 : Fin 2) * 128 + 1 * q.val = q.val
    rw [e1]; omega

/-- An index of the result is in step `t`'s block iff each coordinate is in the block's range. -/
theorem mem_blk (t : Fin cfg0.N) (i : S256x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v4).slice (win0_3.rect t)).set ↔ _
  rw [View.set_slice_whole, Rect.mem_set_unit]
  exact Iff.rfl

/-- Row `n` of the result is written by step `n / 8`. -/
theorem cover (i : S256x128.Idx) : ∃ t : Fin cfg0.N, (cfg0.win 3).flush t = true ∧ i ∈ ((cfg0.win 3).blk t).view.set := by
  have h0 : (i 0).val < 256 := (i 0).isLt
  have h1 : (i 1).val < 128 := (i 1).isLt
  have hN : cfg0.N = 32 := N_0
  refine ⟨⟨(i 0).val / 8, by rw [hN]; omega⟩, flush0_3 _, ?_⟩
  rw [mem_blk]
  obtain ⟨-, -, -, -, -, -, e0, e1⟩ := idx_facts ⟨(i 0).val / 8, by rw [hN]; omega⟩
  intro a
  match a with
  | ⟨0, _⟩ =>
    show win0_3.index _ (0 : Fin 2) * 8 ≤ (i 0).val ∧ (i 0).val < win0_3.index _ (0 : Fin 2) * 8 + 8
    rw [e0]; show (i 0).val / 8 * 8 ≤ (i 0).val ∧ (i 0).val < (i 0).val / 8 * 8 + 8; omega
  | ⟨1, _⟩ =>
    show win0_3.index _ (1 : Fin 2) * 128 ≤ (i 1).val ∧ (i 1).val < win0_3.index _ (1 : Fin 2) * 128 + 128
    rw [e1]; omega

/-- THE RESULT of the grid: the matrix of scores. -/
theorem final (c : Dev nD) : (dats m 0 c).arrAt 3 cfg0.N = result m c :=
  (dats m 0 c).arrAt_eq_of_cover 3 (result m c) (fun t _ => flushed_eq m c t) cover

end Cert.Gated.Region

end
-- ==== Proof.KernelRun.lean ====
/-
  The kernel program's result.

  After the grid the `[256, 128]` matrix of scores is flattened to `[32768]` and split into `[256, 128, 1]` — no entry
  moves — and a softmax over the instance axis follows: the maximum over the instances is subtracted, the exponential
  taken, and each entry divided by the sum of its column over the instances.  The softmax is carried as one function
  `softmax0` of the array of scores and never opened.
-/
import proofs.«165908_j84851373899993_2_alg».proof.Proof.RegionValue

noncomputable section

open Idealize.ShloMosaic Idealize.ShloMosaic.TcCoe Idealize.SL.Sem Idealize.ShloMosaic.ValueIdx

namespace Cert.Gated.Run

open Cert.KernelIdeal Cert.KernelIdeal.Gen

/-- The maximum over the instances, per batch entry (never below `-∞`). -/
def colMax (s : FVec Ideal S256x128x1 .f32) : FVec Ideal S128x1 .f32 :=
  maximumf (broadcastInDim S128x1 ![] bcast_S_S128x1 (constant (F := Ideal) S_ .f32 0xFF800000#32))
    (Host.reduce (FloatOps.maximumf (F := Ideal) (φ := .f32)) s (constant (F := Ideal) S_ .f32 0xFF800000#32) reducesTo_S256x128x1_S128x1_d0 h_S_)

/-- `e^(s - max)`, entry by entry. -/
def expShifted (s : FVec Ideal S256x128x1 .f32) : FVec Ideal S256x128x1 .f32 :=
  Host.exp (F := Ideal) (subf s (broadcastInDim S256x128x1 ![0, 1, 2] bcast_S1x128x1_S256x128x1_0_1_2
    (broadcastInDim S1x128x1 ![1, 2] bcast_S128x1_S1x128x1_1_2 (colMax s))))

/-- The softmax over the instance axis. -/
def softmax0 (s : FVec Ideal S256x128x1 .f32) : FVec Ideal S256x128x1 .f32 :=
  Host.divf (F := Ideal) (expShifted s) (broadcastInDim S256x128x1 ![0, 1, 2] bcast_S1x128x1_S256x128x1_0_1_2
    (broadcastInDim S1x128x1 ![1, 2] bcast_S128x1_S1x128x1_1_2
      (Host.reduceAdd (F := Ideal) (expShifted s) (constant (F := Ideal) S_ .f32 0x00000000#32) reducesTo_S256x128x1_S128x1_d0 h_S_)))

variable (m : (ℓ : Loc nD τ sig) → Buf (Elt Ideal) ℓ) (ρ : Dev nD → PrngReg)

/-- The array of scores of the arguments, `[256, 128, 1]`. -/
abbrev scores (c : Dev nD) : FVec Ideal S256x128x1 .f32 :=
  Cert.Gated.scores3 (m ((c : Thread nD τ).loc main_arg0)) (m ((c : Thread nD τ).loc main_arg1))
    (m ((c : Thread nD τ).loc main_arg2)) (m ((c : Thread nD τ).loc main_arg3))

/-- What the operations after the grid leave in the result: the softmax of the scores. -/
theorem tail_eq (c : Dev nD) :
    Pipeline.afterTail₀ cfgs (dats m) 0 (V0 m) [hostOps1] c main_v17 = softmax0 (scores m c) := by
  unfold Pipeline.afterTail₀
  show StableHlo.after hostOps1 _ (Proc.devRef .tc main_v17) = _
  after_results
  have hA : Pipeline.withArrays (cfgs 0).spec c (V0 m c) (fun w => (dats m 0 c).arrAt w (cfgs 0).N) (Proc.devRef .tc main_v4)
      = Cert.Gated.Region.result m c :=
    (Pipeline.withArrays_arr spec0 launch0.win.arr_inj c _ _ 3).trans (Cert.Gated.Region.final m c)
  have key : shapeCast S256x128x1 (shapeCast S32768 (Pipeline.withArrays (cfgs 0).spec c (V0 m c)
      (fun w => (dats m 0 c).arrAt w (cfgs 0).N) (Proc.devRef .tc main_v4)) shapeCasts_S256x128_S32768) shapeCasts_S32768_S256x128x1
      = scores m c := by
    rw [hA]
    exact Cert.Gated.flatten_split _ _ _ _ _ _
  exact congrArg softmax0 key

/-- THE RUN of the kernel program at the extended reals: every weakly fair execution terminates with the result at the
    softmax of the scores of the arguments, and the arguments unchanged. -/
theorem run : θ_run defs (onTc (τ := τ) (main (F := Ideal))) ⟨m, fun _ => 0, ρ⟩ fun r => ∀ c : Dev nD,
      r.2.mem ((c.tc : Thread nD τ).loc main_v17) = softmax0 (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Gated.Run

end
-- ==== Proof.RefScores.lean ====
/-
  The reference's scores.

  The reference contracts `x` with `v` and with `u` over the feature axis, applies `tanh` to the first product and
  `1 / (1 + e^(-·))` to the second, multiplies the two and contracts the result with `w` over the hidden axis.  Entry
  `(n, b, 0)` of that array is `score n b`: the quotient `1 / (1 + e^(-t))` is the logistic function by its definition.
-/
import proofs.«165908_j84851373899993_2_alg».proof.Proof.Gen.ReferenceIdeal.Read
import proofs.«165908_j84851373899993_2_alg».proof.Proof.Scores

noncomputable section

namespace Cert.Gated.Ref

open Idealize.ShloMosaic Idealize.ShloMosaic.ValueIdx Cert.ReferenceIdeal Cert.ReferenceIdeal.Read

/-- The reference's array of scores, before its softmax, is `scores3` of the arguments. -/
theorem scores_eq (x0 : (⟨S256x128x1024, .f32⟩ : BufTy).Contents (Elt Ideal)) (x1 x2 : (⟨S1024x512, .f32⟩ : BufTy).Contents (Elt Ideal))
    (x3 : (⟨S512x1, .f32⟩ : BufTy).Contents (Elt Ideal)) :
    val_main_v10 (F := Ideal) x0 x1 x2 x3 = Cert.Gated.scores3 x0 x1 x2 x3 := by
  funext i
  have hu : (i 2).val < 1 := (i 2).isLt
  -- the operands' indices, by coordinates
  have ex : ∀ (l : Fin 512) (k : Fin 1024), lidx_main_v0 (lidx_main_v10 i l) k
      = ix3 (⟨(i 0).val, (i 0).isLt⟩ : Fin 256) (⟨(i 1).val, (i 1).isLt⟩ : Fin 128) k := fun l k =>
    funext fun a => Fin.ext (by match a with | ⟨0, _⟩ => rfl | ⟨1, _⟩ => rfl | ⟨2, _⟩ => rfl)
  have ev : ∀ (l : Fin 512) (k : Fin 1024), ridx_main_v0 (lidx_main_v10 i l) k = ix2 k l := fun l k =>
    funext fun a => Fin.ext (by match a with | ⟨0, _⟩ => rfl | ⟨1, _⟩ => rfl)
  have ex' : ∀ (l : Fin 512) (k : Fin 1024), lidx_main_v2 (lidx_main_v10 i l) k
      = ix3 (⟨(i 0).val, (i 0).isLt⟩ : Fin 256) (⟨(i 1).val, (i 1).isLt⟩ : Fin 128) k := fun l k =>
    funext fun a => Fin.ext (by match a with | ⟨0, _⟩ => rfl | ⟨1, _⟩ => rfl | ⟨2, _⟩ => rfl)
  have eu : ∀ (l : Fin 512) (k : Fin 1024), ridx_main_v2 (lidx_main_v10 i l) k = ix2 k l := fun l k =>
    funext fun a => Fin.ext (by match a with | ⟨0, _⟩ => rfl | ⟨1, _⟩ => rfl)
  have ew : ∀ l : Fin 512, ridx_main_v10 i l = ix2 l (0 : Fin 1) := fun l =>
    funext fun a => Fin.ext (by
      match a with
      | ⟨0, _⟩ => rfl
      | ⟨1, _⟩ => show (i 2).val = 0; omega)
  rw [val_main_v10_apply]
  unfold Cert.Gated.scores3 Cert.Gated.score
  refine Finset.sum_congr rfl fun l _ => ?_
  rw [val_main_v9_apply, val_main_v1_apply, val_main_v0_apply, val_main_v8_apply, val_main_v7_apply, val_main_cst_0_apply,
    val_main_v6_apply, val_main_v5_apply, val_main_cst_apply, val_main_v4_apply, val_main_v3_apply, val_main_v2_apply]
  simp only [ex, ev, ex', eu, ew, Ideal.mulf_def, Ideal.hostUnary_tanh_def, Ideal.hostDivf_def, Ideal.addf_def,
    Ideal.hostUnary_exp_def, Ideal.hostNegf_def, Ideal.negf_def, Ideal.ofBits_def, Cert.Gated.ofBits_one_f32, Ideal.logistic]

end Cert.Gated.Ref

end
-- ==== Proof.lean ====
/-
  The kernel and its reference compute one function on the extended reals.

  Both programs form, for every instance `n` and batch entry `b`, the gated score
  `∑ l, tanh (∑ d, x[n, b, d] · v[d, l]) · σ (∑ d, x[n, b, d] · u[d, l]) · w[l, 0]`, and then a softmax over the instances.
  The kernel flattens `x`, multiplies it in row blocks by `v` and `u` set side by side, splits the product in two halves,
  sums each row against `w` and lays the row sums out as `[256, 128]`; the reference contracts the axes directly and writes
  the logistic function as `1 / (1 + e^(-t))`.  A change of float format is the identity, sums are finite sums of an additive
  commutative monoid, and no law that needs finiteness is used: the precondition is never opened.  The softmax after the
  scores is the same chain of operations in both programs and is carried as one function.  The idealized kernel is the
  kernel's own text (no rewrite to account for).
-/
import proofs.«165908_j84851373899993_2_alg».proof.Defs
import proofs.«165908_j84851373899993_2_alg».proof.Proof.Gen.Kernel
import proofs.«165908_j84851373899993_2_alg».proof.Proof.Gen.Kernel.Skeleton
import proofs.«165908_j84851373899993_2_alg».proof.Proof.Gen.Kernel.Launch
import proofs.«165908_j84851373899993_2_alg».proof.Proof.Gen.Kernel.Points
import proofs.«165908_j84851373899993_2_alg».proof.Proof.Gen.Kernel.Frame
import proofs.«165908_j84851373899993_2_alg».proof.Proof.Gen.KernelIdeal
import proofs.«165908_j84851373899993_2_alg».proof.Proof.Gen.KernelIdeal.Skeleton
import proofs.«165908_j84851373899993_2_alg».proof.Proof.Gen.KernelIdeal.Launch
import proofs.«165908_j84851373899993_2_alg».proof.Proof.Gen.KernelIdeal.Points
import proofs.«165908_j84851373899993_2_alg».proof.Proof.Gen.KernelIdeal.Frame
import proofs.«165908_j84851373899993_2_alg».proof.Proof.Gen.ReferenceIdeal
import proofs.«165908_j84851373899993_2_alg».proof.Proof.Gen.Pre_finite_inputs
import proofs.«165908_j84851373899993_2_alg».proof.Proof.Gen.ReferenceIdeal.Run
import proofs.«165908_j84851373899993_2_alg».proof.Proof.Gen.ReferenceIdeal.Read
import proofs.«165908_j84851373899993_2_alg».proof.Proof.KernelRun
import proofs.«165908_j84851373899993_2_alg».proof.Proof.RefScores
import Idealize.ShloMosaic.Adequacy
import Idealize.ShloMosaic.Init

noncomputable section

namespace Cert.Proof

open Idealize.ShloMosaic Idealize.SL.Sem

/-- The three programs run to the end, fault nowhere and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's result is the same softmax, applied to its own array of scores: the two programs' chains of
    operations after the scores are one chain. -/
theorem ref_tail (x0 : (⟨Cert.ReferenceIdeal.S256x128x1024, .f32⟩ : BufTy).Contents (Elt Ideal))
    (x1 x2 : (⟨Cert.ReferenceIdeal.S1024x512, .f32⟩ : BufTy).Contents (Elt Ideal))
    (x3 : (⟨Cert.ReferenceIdeal.S512x1, .f32⟩ : BufTy).Contents (Elt Ideal)) :
    Cert.ReferenceIdeal.Read.val_main_v21 (F := Ideal) x0 x1 x2 x3
      = Cert.Gated.Run.softmax0 (Cert.ReferenceIdeal.Read.val_main_v10 (F := Ideal) x0 x1 x2 x3) := rfl

/-- From memories that agree on the arguments both idealized programs end with the softmax of the scores. -/
theorem algebraic : Cert.algebraic_KernelIdeal_ReferenceIdeal := by
  intro m ρ m' ρ' _ hagree
  refine ⟨fun c => Cert.Gated.Run.softmax0 (Cert.Gated.Run.scores m c), Cert.Gated.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, ref_tail, Cert.Gated.Ref.scores_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
